-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S25000 : S_.BroadcastsInDim S25000 (![] : Fin 0 → Fin S25000.rank)
  reducesTo_S25000_S_d0 : S25000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S25000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S25000 .f32 := Host.absf main_arg4
  let main_cst_6 : FVec F S_ .f32 := constant S_ .f32 0x7F800000#32
  let main_v20 : FVec F S25000 .f32 := broadcastInDim S25000 ![] bcast_S_S25000 main_cst_6
  let main_v21 : IVec S25000 1 := cmpf .olt main_v19 main_v20
  let main_c_7 : IVec S_ 1 := constantI S_ 1 1#1
  let main_v22 : IVec S_ 1 := (fun x v => Host.reduce IntOp.andi x v reducesTo_S25000_S_d0 h_S_) main_v21 main_c_7
  let main_v23 : IVec S_ 1 := andi main_v18 main_v22
  main_v23

def fn {F : FTy → Type} [FloatOps F] (main_arg0 : FVec F S50000x512 .f32) (main_arg1 : FVec F S512x512 .f32) (main_arg2 : FVec F S25000 .f32) (main_arg3 : FVec F S50000 .f32) (main_arg4 : FVec F S25000 .f32) (main_arg5 : IVec S400000 32) (main_arg6 : IVec S400000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S25000 .f32 := Host.absf main_arg2
  let main_cst_2 : FVec F S_ .f32 := constant S_ .f32 0x7F800000#32
  let main_v10 : FVec F S25000 .f32 := broadcastInDim S25000 ![] bcast_S_S25000 main_cst_2
  let main_v11 : IVec S25000 1 := cmpf .olt main_v9 main_v10
  let main_c_3 : IVec S_ 1 := constantI S_ 1 1#1
  let main_v12 : IVec S_ 1 := (fun x v => Host.reduce IntOp.andi x v reducesTo_S25000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_v13 main_v16
-- ==== Kernel.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S2000x512 : Shape := ⟨2, ![2000, 512]⟩
abbrev S_ : Shape := ⟨0, ![]⟩
abbrev S400000x1 : Shape := ⟨2, ![400000, 1]⟩
abbrev S400000x512 : Shape := ⟨2, ![400000, 512]⟩
abbrev S25000x512 : Shape := ⟨2, ![25000, 512]⟩
abbrev S25000x1 : Shape := ⟨2, ![25000, 1]⟩
abbrev S50000x1 : Shape := ⟨2, ![50000, 1]⟩

abbrev nBuf : Space → Nat
  | .hbm => 46
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S25000, .f32⟩
  | .hbm, ⟨3, _⟩ => ⟨S50000, .f32⟩
  | .hbm, ⟨4, _⟩ => ⟨S25000, .f32⟩
  | .hbm, ⟨5, _⟩ => ⟨S400000, .i32⟩
  | .hbm, ⟨6, _⟩ => ⟨S400000, .i32⟩
  | .hbm, ⟨7, _⟩ => ⟨S512x512, .f32⟩
  | .hbm, ⟨8, _⟩ => ⟨S512x512, .bf16⟩
  | .hbm, ⟨9, _⟩ => ⟨S50000x512, .bf16⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x512, .bf16⟩
  | .hbm, ⟨19, _⟩ => ⟨S400000x512, .f32⟩
  | .hbm, ⟨20, _⟩ => ⟨S_, .f32⟩
  | .hbm, ⟨21, _⟩ => ⟨S25000x512, .f32⟩
  | .hbm, ⟨22, _⟩ => ⟨S400000x1, .i32⟩
  | .hbm, ⟨23, _⟩ => ⟨S25000x512, .f32⟩
  | .hbm, ⟨24, _⟩ => ⟨S25000, .f32⟩
  | .hbm, ⟨25, _⟩ => ⟨S25000x1, .f32⟩
  | .hbm, ⟨26, _⟩ => ⟨S25000x512, .f32⟩
  | .hbm, ⟨27, _⟩ => ⟨S25000x512, .f32⟩
  | .hbm, ⟨28, _⟩ => ⟨S25000x512, .bf16⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x512, .bf16⟩
  | .hbm, ⟨38, _⟩ => ⟨S400000x512, .f32⟩
  | .hbm, ⟨39, _⟩ => ⟨S_, .f32⟩
  | .hbm, ⟨40, _⟩ => ⟨S50000x512, .f32⟩
  | .hbm, ⟨41, _⟩ => ⟨S400000x1, .i32⟩
  | .hbm, ⟨42, _⟩ => ⟨S50000x512, .f32⟩
  | .hbm, ⟨43, _⟩ => ⟨S50000x1, .f32⟩
  | .hbm, ⟨44, _⟩ => ⟨S50000x512, .f32⟩
  | .hbm, ⟨45, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .bf16⟩
  | .local _ .vmem, ⟨4, _⟩ => ⟨S2000x512, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512_S512x512_1_0 : S512x512.Transposes [1, 0] S512x512
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  dot_S2000x512_S512x512_S2000x512_1_0_0_1_n_n_wf : DotDims.WF S2000x512 S512x512 S2000x512 [1] [0] [0] [1] [] []
  gather_S50000x512_S400000x1_S400000x512_1_0_n_n_0_1_1512_wf : GatherDims.WF S50000x512 S400000x1 S400000x512 [1] [0] [] [0] [] 1 ![1, 512]
  scatter_S25000x512_S400000x1_S400000x512_1_0_0_1_wf : ScatterDims.WF S25000x512 S400000x1 S400000x512 [1] [0] [0] 1
  gather_S25000x512_S400000x1_S400000x512_1_0_n_n_0_1_1512_wf : GatherDims.WF S25000x512 S400000x1 S400000x512 [1] [0] [] [0] [] 1 ![1, 512]
  scatter_S50000x512_S400000x1_S400000x512_1_0_0_1_wf : ScatterDims.WF S50000x512 S400000x1 S400000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .bf16 = 32 ∨ (Rect.block (s := S50000x512) S2000x512.size (cc0_transform_2 i) (hinb0_2 i)).WholeWords (EltTy.packing .bf16)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S25000x512 : Shape := ⟨2, ![25000, 512]⟩
abbrev S25000x1 : Shape := ⟨2, ![25000, 1]⟩
abbrev S50000x1 : Shape := ⟨2, ![50000, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S25000, .f32⟩
  | .hbm, ⟨3, _⟩ => ⟨S50000, .f32⟩
  | .hbm, ⟨4, _⟩ => ⟨S25000, .f32⟩
  | .hbm, ⟨5, _⟩ => ⟨S400000, .i32⟩
  | .hbm, ⟨6, _⟩ => ⟨S400000, .i32⟩
  | .hbm, ⟨7, _⟩ => ⟨S50000x512, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x512, .f32⟩
  | .hbm, ⟨17, _⟩ => ⟨S_, .f32⟩
  | .hbm, ⟨18, _⟩ => ⟨S25000x512, .f32⟩
  | .hbm, ⟨19, _⟩ => ⟨S400000x1, .i32⟩
  | .hbm, ⟨20, _⟩ => ⟨S25000x512, .f32⟩
  | .hbm, ⟨21, _⟩ => ⟨S25000, .f32⟩
  | .hbm, ⟨22, _⟩ => ⟨S25000x1, .f32⟩
  | .hbm, ⟨23, _⟩ => ⟨S25000x512, .f32⟩
  | .hbm, ⟨24, _⟩ => ⟨S25000x512, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x512, .f32⟩
  | .hbm, ⟨34, _⟩ => ⟨S_, .f32⟩
  | .hbm, ⟨35, _⟩ => ⟨S50000x512, .f32⟩
  | .hbm, ⟨36, _⟩ => ⟨S400000x1, .i32⟩
  | .hbm, ⟨37, _⟩ => ⟨S50000x512, .f32⟩
  | .hbm, ⟨38, _⟩ => ⟨S50000x1, .f32⟩
  | .hbm, ⟨39, _⟩ => ⟨S50000x512, .f32⟩
  | .hbm, ⟨40, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  dot_S50000x512_S512x512_S50000x512_1_1_0_0_n_n_wf : DotDims.WF S50000x512 S512x512 S50000x512 [1] [1] [0] [0] [] []
  gather_S50000x512_S400000x1_S400000x512_1_0_n_n_0_1_1512_wf : GatherDims.WF S50000x512 S400000x1 S400000x512 [1] [0] [] [0] [] 1 ![1, 512]
  scatter_S25000x512_S400000x1_S400000x512_1_0_0_1_wf : ScatterDims.WF S25000x512 S400000x1 S400000x512 [1] [0] [0] 1
  gather_S25000x512_S400000x1_S400000x512_1_0_n_n_0_1_1512_wf : GatherDims.WF S25000x512 S400000x1 S400000x512 [1] [0] [] [0] [] 1 ![1, 512]
  scatter_S50000x512_S400000x1_S400000x512_1_0_0_1_wf : ScatterDims.WF S50000x512 S400000x1 S400000x512 [1] [0] [0] 1

variable [Facts₀]

def dot_S50000x512_S512x512_S50000x512_1_1_0_0_n_n : DotDims S50000x512 S512x512 S50000x512 where
  lhsContracting := [1]
  rhsContracting := [1]
  lhsNonContracting := [0]
  rhsNonContracting := [0]
  lhsBatch := []
  rhsBatch := []
  wf := dot_S50000x512_S512x512_S50000x512_1_1_0_0_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.Proj.lean ====
/-
  The dense projection Xp = X·Wᵀ, entry by entry, at the extended reals.

  Entry (n, o) of the projection is the sum over the shared axis d of X(n, d)·W(o, d).  The reference computes it as
  one product of the whole matrices contracting the LAST axis of both.  The kernel computes, for a block of 2000
  rows of X, the plain product of that block with a 512×512 matrix B into a zero accumulator; entry (p, q) of that
  block product is the sum over d of (block)(p, d)·B(d, q).  Nothing is rounded on the extended reals (the format
  changes around the product are the identity there), so once B(d, q) = W(q, d) the two sums are the same sum,
  summand by summand.
-/
import proofs.«150350_j27831388078171_2_alg».proof.Proof.Gen.KernelIdeal.Skeleton
import proofs.«150350_j27831388078171_2_alg».proof.Proof.Gen.ReferenceIdeal.Read
import proofs.«150350_j27831388078171_2_alg».proof.Proof.LibPlainMatmul
import Idealize.ShloMosaic.Lib.ValueIdx
import Idealize.ShloMosaic.Lib.ValueLayout
import Idealize.ShloMosaic.Lib.Pipeline.Value

noncomputable section

open scoped BigOperators

namespace Cert.Hgnn

open Idealize.ShloMosaic Idealize.ShloMosaic.ValueIdx

/-- The projection: entry (n, o) is Σ_d X(n, d)·W(o, d). -/
def proj (X : (⟨2, ![50000, 512]⟩ : Shape).Idx → EReal) (W : (⟨2, ![512, 512]⟩ : Shape).Idx → EReal) :
    (⟨2, ![50000, 512]⟩ : Shape).Idx → EReal :=
  fun i => ∑ d : Fin 512, X (ix2 (i 0) d) * W (ix2 (i 1) d)

/-- The reference's product of the whole matrices, contracting the last axis of both, is the projection. -/
theorem ref_proj (X : FVec Ideal Cert.ReferenceIdeal.S50000x512 .f32) (W : FVec Ideal Cert.ReferenceIdeal.S512x512 .f32) :
    Host.dotGeneral (F := Ideal) Cert.ReferenceIdeal.dot_S50000x512_S512x512_S50000x512_1_1_0_0_n_n none X W = proj X W := by
  funext i
  refine (Cert.ReferenceIdeal.Read.val_main_v0_apply X W i).trans ?_
  unfold proj
  refine Finset.sum_congr rfl fun d _ => ?_
  have el : Cert.ReferenceIdeal.Read.lidx_main_v0 i d = ix2 (i 0) d :=
    funext fun a => Fin.ext (by match a with | ⟨0, _⟩ => rfl | ⟨1, _⟩ => rfl)
  have er : Cert.ReferenceIdeal.Read.ridx_main_v0 i d = ix2 (i 1) d :=
    funext fun a => Fin.ext (by match a with | ⟨0, _⟩ => rfl | ⟨1, _⟩ => rfl)
  rw [el, er]
  rfl

/-- The kernel body's stored value at entry (p, q) of its block: the plain product of the loaded 2000×512 block of
    X with the loaded 512×512 matrix, Σ_d x(p, d)·b(d, q). -/
theorem pay_apply (x : Vec Ideal Cert.KernelIdeal.S2000x512 .f32) (b : Vec Ideal Cert.KernelIdeal.S512x512 .bf16)
    (p : Fin 2000) (q : Fin 512) :
    Cert.KernelIdeal.Gen.k0_pay1 (F := Ideal) x b (ix2 p q) = ∑ d : Fin 512, x (ix2 p d) * b (ix2 d q) := by
  unfold Cert.KernelIdeal.Gen.k0_pay1
  rw [shapeCast_self]
  exact Cert.LibPlainMatmul.matmul_plain_zero_apply (m := 2000) (k := 512) (n := 512) (φ₁ := .bf16) (φ₂ := .bf16) none
    (truncf .bf16 x (by decide)) b p q

/-- The projection at an entry given by its two coordinates. -/
theorem proj_apply (X : (⟨2, ![50000, 512]⟩ : Shape).Idx → EReal) (W : (⟨2, ![512, 512]⟩ : Shape).Idx → EReal)
    (n : Fin 50000) (o : Fin 512) : proj X W (ix2 n o) = ∑ d : Fin 512, X (ix2 n d) * W (ix2 o d) := rfl

/-- A block of rows of the projection.  If the loaded block `x` is the 2000 rows of X from row `r0` on, and the
    loaded matrix `b` is W transposed, then the body's stored value at entry `j` of the block is the projection at
    the entry `i` of the whole array that lies `r0` rows further down in the same column. -/
theorem pay_block (X : (⟨2, ![50000, 512]⟩ : Shape).Idx → EReal) (W : (⟨2, ![512, 512]⟩ : Shape).Idx → EReal)
    (x : Vec Ideal Cert.KernelIdeal.S2000x512 .f32) (b : Vec Ideal Cert.KernelIdeal.S512x512 .bf16) (r0 : Nat)
    (hx : ∀ (p : Fin 2000) (d : Fin 512) (n : Fin 50000), n.val = r0 + p.val → x (ix2 p d) = X (ix2 n d))
    (hb : ∀ d q : Fin 512, b (ix2 d q) = W (ix2 q d))
    (j : (⟨2, ![2000, 512]⟩ : Shape).Idx) (i : (⟨2, ![50000, 512]⟩ : Shape).Idx)
    (h0 : (i 0).val = r0 + (j 0).val) (h1 : (i 1).val = (j 1).val) :
    Cert.KernelIdeal.Gen.k0_pay1 (F := Ideal) x b j = proj X W i := by
  obtain ⟨p, q, rfl⟩ : ∃ (p : Fin 2000) (q : Fin 512), j = ix2 p q := ⟨j 0, j 1, eq_ix2 j⟩
  obtain ⟨n, o, rfl⟩ : ∃ (n : Fin 50000) (o : Fin 512), i = ix2 n o := ⟨i 0, i 1, eq_ix2 i⟩
  have h0' : n.val = r0 + p.val := h0
  have h1' : o = q := Fin.ext h1
  subst h1'
  rw [pay_apply, proj_apply]
  exact Finset.sum_congr rfl fun d _ => by rw [hx p d n h0', hb d o]

end Cert.Hgnn

end
-- ==== Proof.Tail.lean ====
/-
  The two aggregation stages that follow the projection, as one function of the projected features.

  Given the projected features Xp (one row per vertex), the incidence pairs (vidx k, eidx k) and the three scale
  vectors, the result is

    Xe(e, ·) = (degE(e)·Wdiag(e)) · Σ_{k : eidx k = e} Xp(vidx k, ·)        (vertices gathered, summed per hyperedge)
    Xv(v, ·) = degV(v) · Σ_{k : vidx k = v} Xe(eidx k, ·)                    (hyperedges gathered, summed per vertex)

  with a negative index wrapped once by the axis extent before each gather, exactly as both programs spell it.
  Both programs apply this same chain of host operations to their projection; it is kept closed here, so that the
  two results are equal as soon as the two projections are.
-/
import proofs.«150350_j27831388078171_2_alg».proof.Proof.Gen.ReferenceIdeal.Run
import Idealize.ShloMosaic.PureOps.Ideal

noncomputable section

namespace Cert.Hgnn

open Cert.ReferenceIdeal Cert.ReferenceIdeal.Gen Idealize.ShloMosaic Idealize.ShloMosaic.TcCoe Idealize.SL.Sem

/-- The aggregation stages applied to projected features `xp`. -/
def tail (xp : FVec Ideal S50000x512 .f32) (degE : FVec Ideal S25000 .f32) (degV : FVec Ideal S50000 .f32)
    (wdiag : FVec Ideal S25000 .f32) (vidx eidx : IVec S400000 32) : FVec Ideal S50000x512 .f32 :=
  mulf (F := Ideal) (Host.scatterAdd (F := Ideal) scatter_S50000x512_S400000x1_S400000x512_1_0_0_1 (broadcastInDim S50000x512 ![] bcast_S_S50000x512 (constant (F := Ideal) S_ .f32 0x00000000#32)) (broadcastInDim S400000x1 ![0] bcast_S400000_S400000x1_0 vidx) (Host.gather gather_S25000x512_S400000x1_S400000x512_1_0_n_n_0_1_1512 (mulf (F := Ideal) (Host.scatterAdd (F := Ideal) scatter_S25000x512_S400000x1_S400000x512_1_0_0_1 (broadcastInDim S25000x512 ![] bcast_S_S25000x512 (constant (F := Ideal) S_ .f32 0x00000000#32)) (broadcastInDim S400000x1 ![0] bcast_S400000_S400000x1_0 eidx) (Host.gather gather_S50000x512_S400000x1_S400000x512_1_0_n_n_0_1_1512 xp (broadcastInDim S400000x1 ![0] bcast_S400000_S400000x1_0 (select (cmpi .slt vidx (broadcastInDim S400000 ![] bcast_S_S400000 (constantI S_ 32 0#32))) (addi vidx (broadcastInDim S400000 ![] bcast_S_S400000 (constantI S_ 32 50000#32))) vidx)))) (broadcastInDim S25000x512 ![0, 1] bcast_S25000x1_S25000x512_0_1 (broadcastInDim S25000x1 ![0] bcast_S25000_S25000x1_0 (mulf (F := Ideal) degE wdiag)))) (broadcastInDim S400000x1 ![0] bcast_S400000_S400000x1_0 (select (cmpi .slt eidx (broadcastInDim S400000 ![] bcast_S_S400000 (constantI S_ 32 0#32))) (addi eidx (broadcastInDim S400000 ![] bcast_S_S400000 (constantI S_ 32 25000#32))) eidx)))) (broadcastInDim S50000x512 ![0, 1] bcast_S50000x1_S50000x512_0_1 (broadcastInDim S50000x1 ![0] bcast_S50000_S50000x1_0 degV))

/-- What the reference's run leaves in its result: the aggregation stages applied to its product of the whole
    matrices. -/
theorem ref_result (X : FVec Ideal S50000x512 .f32) (W : FVec Ideal S512x512 .f32) (degE : FVec Ideal S25000 .f32)
    (degV : FVec Ideal S50000 .f32) (wdiag : FVec Ideal S25000 .f32) (vidx eidx : IVec S400000 32) :
    mulf (F := Ideal) (Host.scatterAdd (F := Ideal) scatter_S50000x512_S400000x1_S400000x512_1_0_0_1 (broadcastInDim S50000x512 ![] bcast_S_S50000x512 (constant (F := Ideal) S_ .f32 0x00000000#32)) (broadcastInDim S400000x1 ![0] bcast_S400000_S400000x1_0 vidx) (Host.gather gather_S25000x512_S400000x1_S400000x512_1_0_n_n_0_1_1512 (mulf (F := Ideal) (Host.scatterAdd (F := Ideal) scatter_S25000x512_S400000x1_S400000x512_1_0_0_1 (broadcastInDim S25000x512 ![] bcast_S_S25000x512 (constant (F := Ideal) S_ .f32 0x00000000#32)) (broadcastInDim S400000x1 ![0] bcast_S400000_S400000x1_0 eidx) (Host.gather gather_S50000x512_S400000x1_S400000x512_1_0_n_n_0_1_1512 (Host.dotGeneral (F := Ideal) dot_S50000x512_S512x512_S50000x512_1_1_0_0_n_n none X W) (broadcastInDim S400000x1 ![0] bcast_S400000_S400000x1_0 (select (cmpi .slt vidx (broadcastInDim S400000 ![] bcast_S_S400000 (constantI S_ 32 0#32))) (addi vidx (broadcastInDim S400000 ![] bcast_S_S400000 (constantI S_ 32 50000#32))) vidx)))) (broadcastInDim S25000x512 ![0, 1] bcast_S25000x1_S25000x512_0_1 (broadcastInDim S25000x1 ![0] bcast_S25000_S25000x1_0 (mulf (F := Ideal) degE wdiag)))) (broadcastInDim S400000x1 ![0] bcast_S400000_S400000x1_0 (select (cmpi .slt eidx (broadcastInDim S400000 ![] bcast_S_S400000 (constantI S_ 32 0#32))) (addi eidx (broadcastInDim S400000 ![] bcast_S_S400000 (constantI S_ 32 25000#32))) eidx)))) (broadcastInDim S50000x512 ![0, 1] bcast_S50000x1_S50000x512_0_1 (broadcastInDim S50000x1 ![0] bcast_S50000_S50000x1_0 degV))
      = tail (Host.dotGeneral (F := Ideal) dot_S50000x512_S512x512_S50000x512_1_1_0_0_n_n none X W) degE degV wdiag vidx eidx := rfl

end Cert.Hgnn

end
-- ==== Proof.ProjArray.lean ====
/-
  The array the region leaves: the projection X·Wᵀ.

  The region runs the body at 25 grid points.  At point t it is given rows 2000·t … 2000·t + 1999 of X and the
  whole 512×512 matrix the host prepared (W transposed; the narrowing of its format is the identity on the extended
  reals), and what it leaves is written back as rows 2000·t … 2000·t + 1999 of the output array.  By the block
  lemma, what point t writes back is that block of rows of the projection; every row r of the array lies in the block
  of point r / 2000; so after the last point the array holds the projection.
-/
import proofs.«150350_j27831388078171_2_alg».proof.Proof.Gen.KernelIdeal.Frame
import proofs.«150350_j27831388078171_2_alg».proof.Proof.Proj
import Idealize.ShloMosaic.Lib.Pipeline.Value
import Idealize.ShloMosaic.Lib.ValueLayout
import Idealize.ShloMosaic.Lib.StableHlo.Run

noncomputable section

namespace Cert.Hgnn

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The matrix the region finds in its second window's array is W transposed. -/
theorem V_v1 (c : Dev nD) :
    (V m c main_v1 : S512x512.Idx → EReal)
      = transpose S512x512 [1, 0] (m ((c : Thread nD τ).loc main_arg1)) transposes_S512x512_S512x512_1_0 := by
  show StableHlo.after hostOps0 (fun b => m (c, b)) (Proc.devRef .tc main_v1) = _
  after_results
  rfl

/-- Its entry (d, q) is W(q, d). -/
theorem V_v1_apply (c : Dev nD) (d q : Fin 512) :
    (V m c main_v1 : S512x512.Idx → EReal) (ix2 d q)
      = (m ((c : Thread nD τ).loc main_arg1) : S512x512.Idx → EReal) (ix2 q d) := by
  rw [V_v1]
  exact transpose_ix2_apply _ _ d q

/-- Where each window's block sits at point `t`: the X window and the output window at block row `t`, the matrix
    window always at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the X window's block at point `t` is row 2000·t + p of X. -/
theorem iblk0_apply (c : Dev nD) (t : Fin cfg0.N) (p : Fin 2000) (d : Fin 512) (n : Fin 50000)
    (hn : n.val = 2000 * t.val + p.val) :
    (iblk m c 0 t : Vec Ideal S2000x512 .f32) (ix2 p d)
      = (m ((c : Thread nD τ).loc main_arg0) : S50000x512.Idx → EReal) (ix2 n d) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) ?_
  funext a
  apply Fin.ext
  match a with
  | ⟨0, _⟩ => show win0_0.index t 0 * 2000 + 1 * p.val = n.val; rw [e0, hn]; omega
  | ⟨1, _⟩ => show win0_0.index t 1 * 512 + 1 * d.val = d.val; rw [e1]; omega

/-- The matrix window's block at any point is the whole matrix the host prepared: entry (d, q) is W(q, d). -/
theorem iblk1_apply (c : Dev nD) (t : Fin cfg0.N) (d q : Fin 512) :
    (iblk m c 1 t : Vec Ideal S512x512 .bf16) (ix2 d q)
      = (m ((c : Thread nD τ).loc main_arg1) : S512x512.Idx → EReal) (ix2 q d) := by
  obtain ⟨-, -, e2, e3, -⟩ := idx_facts t
  unfold iblk
  rw [View.read_apply]
  show V m c main_v1 _ = _
  refine Eq.trans ?_ (V_v1_apply m c d q)
  refine congrArg (V m c main_v1) ?_
  funext a
  apply Fin.ext
  match a with
  | ⟨0, _⟩ => show win0_1.index t 0 * 512 + 1 * d.val = d.val; rw [e2]; omega
  | ⟨1, _⟩ => show win0_1.index t 1 * 512 + 1 * q.val = q.val; rw [e3]; omega

/-- What point `t` writes back is block `t` of the projection of the argument arrays. -/
theorem flushed_eq (c : Dev nD) (t : Fin cfg0.N) :
    (dats m 0 c).flushed 2 t = ((cfg0.win 2).blk t).view.read (Elt Ideal)
      (proj (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x512) hz]
  obtain ⟨-, -, -, -, e4, e5⟩ := idx_facts t
  funext j
  show k0_pay1 (iblk m c 0 t) (iblk m c 1 t) j = proj _ _ (((cfg0.win 2).blk t).view.emb j)
  refine pay_block _ _ (iblk m c 0 t) (iblk m c 1 t) (2000 * t.val) (iblk0_apply m c t) (iblk1_apply m c t) j _ ?_ ?_
  · show win0_2.index t 0 * 2000 + 1 * (j 0).val = 2000 * t.val + (j 0).val; rw [e4]; omega
  · show win0_2.index t 1 * 512 + 1 * (j 1).val = (j 1).val; rw [e5]; omega

/-- An index of the output array is in point `t`'s block iff each coordinate is in the block's range on its axis. -/
theorem mem_blk (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v2).slice (win0_2.rect t)).set ↔ _
  rw [View.set_slice_whole, Rect.mem_set_unit]
  exact Iff.rfl

/-- Every entry of the output array is written back by some point: row r by point r / 2000. -/
theorem cover (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ 0 * 2000 ≤ (i 0).val
      ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 512 ≤ (i 1).val
      ∧ (i 1).val < win0_2.index ⟨(i 0).val / 2000, ht⟩ 1 * 512 + 512
    rw [e5]; omega

/-- After the last point the output array holds the projection of the argument arrays. -/
theorem final2 (c : Dev nD) :
    (dats m 0 c).arrAt 2 cfg0.N
      = proj (m ((c : Thread nD τ).loc main_arg0)) (m ((c : Thread nD τ).loc main_arg1)) :=
  (dats m 0 c).arrAt_eq_of_cover 2 _ (fun t _ => flushed_eq m c t) cover

end Cert.Hgnn

end
-- ==== Proof.KTail.lean ====
/-
  The kernel program's host operations after the region are the aggregation stages.

  After the region, the kernel program gathers rows of the projected features by vertex, sums them per hyperedge,
  scales, gathers rows by hyperedge, sums per vertex and scales: the reference's chain, with a change of float
  format after the projection, after the first scaling and after each gather.  On the extended reals a change of
  format is the identity, so the chain is the same function of the projected features and of the arguments.
-/
import proofs.«150350_j27831388078171_2_alg».proof.Proof.Gen.KernelIdeal.Launch
import proofs.«150350_j27831388078171_2_alg».proof.Proof.Tail
import Idealize.ShloMosaic.Lib.StableHlo.Run

noncomputable section

namespace Cert.Hgnn

open Cert.KernelIdeal Cert.KernelIdeal.Gen Idealize.ShloMosaic Idealize.ShloMosaic.TcCoe Idealize.SL.Sem Idealize.ShloMosaic.StableHlo

/-- From ANY buffer contents `Wv`, the host operations after the region leave in the result buffer the aggregation
    stages applied to what `Wv` holds in the projection's buffer and in the argument buffers. -/
theorem kernel_tail (Wv : Valuation τ sig (Elt Ideal)) :
    StableHlo.after (hostOps1 (F := Ideal)) Wv (Proc.devRef .tc main_v32)
      = tail (Wv (Proc.devRef .tc main_v2)) (Wv (Proc.devRef .tc main_arg2)) (Wv (Proc.devRef .tc main_arg3))
          (Wv (Proc.devRef .tc main_arg4)) (Wv (Proc.devRef .tc main_arg5)) (Wv (Proc.devRef .tc main_arg6)) := by
  after_results_simp
  rfl

end Cert.Hgnn

end
-- ==== Proof.KRun.lean ====
/-
  The kernel program's run, read: its result buffer ends at the aggregation stages applied to the projection of the
  arguments.

  The frame run leaves, in the projection's buffer, what the region's write-backs left — the projection X·Wᵀ of the
  arguments — and in every other buffer what the host operations after the region compute from the buffers as the
  region left them.  Those operations are the aggregation stages; they read the projection's buffer and five
  argument buffers, none of which anything before them wrote.
-/
import proofs.«150350_j27831388078171_2_alg».proof.Proof.Gen.KernelIdeal.Frame
import proofs.«150350_j27831388078171_2_alg».proof.Proof.ProjArray
import proofs.«150350_j27831388078171_2_alg».proof.Proof.KTail

noncomputable section

namespace Cert.Hgnn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the program's result buffer holds after the host operations that follow the region. -/
theorem tail_result (c : Dev nD) :
    Pipeline.afterTail₀ cfgs (dats m) 0 (V0 m) [hostOps1] c main_v32
      = tail (proj (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v32) = _
  refine (kernel_tail _).trans ?_
  have e2 := (Pipeline.withArrays_arr spec0 launch0.win.arr_inj c (V0 m c) (fun w => (dats m 0 c).arrAt w cfg0.N) 2).trans
    (final2 m c)
  have a2 := (Pipeline.withArrays_of_ne spec0 c (V0 m c) (fun w => (dats m 0 c).arrAt w cfg0.N) main_arg2
    (by exact (by decide : ∀ w, Pipeline.arrRef spec0 w ≠ main_arg2))).trans (V_main_arg2 m c)
  have a3 := (Pipeline.withArrays_of_ne spec0 c (V0 m c) (fun w => (dats m 0 c).arrAt w cfg0.N) main_arg3
    (by exact (by decide : ∀ w, Pipeline.arrRef spec0 w ≠ main_arg3))).trans (V_main_arg3 m c)
  have a4 := (Pipeline.withArrays_of_ne spec0 c (V0 m c) (fun w => (dats m 0 c).arrAt w cfg0.N) main_arg4
    (by exact (by decide : ∀ w, Pipeline.arrRef spec0 w ≠ main_arg4))).trans (V_main_arg4 m c)
  have a5 := (Pipeline.withArrays_of_ne spec0 c (V0 m c) (fun w => (dats m 0 c).arrAt w cfg0.N) main_arg5
    (by exact (by decide : ∀ w, Pipeline.arrRef spec0 w ≠ main_arg5))).trans (V_main_arg5 m c)
  have a6 := (Pipeline.withArrays_of_ne spec0 c (V0 m c) (fun w => (dats m 0 c).arrAt w cfg0.N) main_arg6
    (by exact (by decide : ∀ w, Pipeline.arrRef spec0 w ≠ main_arg6))).trans (V_main_arg6 m c)
  exact congr (congr (congr (congr (congr (congrArg tail e2) a2) a3) a4) a5) a6

/-- The run: every weakly fair execution terminates with the result buffer at the aggregation stages of the
    projection of the arguments, and the arguments unchanged. -/
theorem run : θ_run defs (onTc (τ := τ) (main (F := Ideal))) ⟨m, fun _ => 0, ρ⟩ fun r => ∀ c : Dev nD,
      r.2.mem ((c.tc : Thread nD τ).loc main_v32)
        = tail (proj (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v32 (Pipeline.mem_restRefs_of main_v32 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Hgnn

end
-- ==== Proof.lean ====
/-
  A hypergraph message-passing layer: the kernel program against its reference, on the extended reals.

  Both programs compute  Xv = degV · S_v( (degE·Wdiag) · S_e( Xp ) )  with  Xp = X·Wᵀ,  where S_e gathers rows of its
  operand by vertex index and sums them per hyperedge and S_v gathers rows by hyperedge index and sums them per vertex.
  They differ only in how Xp is produced and in changes of float format:

  * the reference takes one product of the whole matrices, contracting the last axis of X with the last axis of W;
  * the kernel program transposes W on the host and runs a region of 25 grid points, point t multiplying rows
    2000·t … 2000·t + 1999 of X by the transposed matrix into a zero accumulator and writing the block back as the
    same rows of Xp; it narrows X, Wᵀ, Xp and the first stage's result to a shorter format and widens them again.

  On the extended reals a change of format is the identity and no sum is rounded, so entry (n, o) of either
  projection is the one sum Σ_d X(n, d)·W(o, d) (Proj), the region's write-backs tile the array with blocks of that
  projection (ProjArray), and the host operations that follow are the same function of the projection and the
  arguments in both programs (Tail, KTail, KRun).  No law beyond the sums being the same sums is used, so the
  finiteness of the inputs is never opened.  The idealization rewrote nothing, so it has nothing to preserve.
-/
import proofs.«150350_j27831388078171_2_alg».proof.Defs
import proofs.«150350_j27831388078171_2_alg».proof.Proof.Gen.Kernel
import proofs.«150350_j27831388078171_2_alg».proof.Proof.Gen.Kernel.Skeleton
import proofs.«150350_j27831388078171_2_alg».proof.Proof.Gen.Kernel.Launch
import proofs.«150350_j27831388078171_2_alg».proof.Proof.Gen.Kernel.Points
import proofs.«150350_j27831388078171_2_alg».proof.Proof.Gen.Kernel.Frame
import proofs.«150350_j27831388078171_2_alg».proof.Proof.Gen.KernelIdeal
import proofs.«150350_j27831388078171_2_alg».proof.Proof.Gen.KernelIdeal.Skeleton
import proofs.«150350_j27831388078171_2_alg».proof.Proof.Gen.KernelIdeal.Launch
import proofs.«150350_j27831388078171_2_alg».proof.Proof.Gen.KernelIdeal.Points
import proofs.«150350_j27831388078171_2_alg».proof.Proof.Gen.KernelIdeal.Frame
import proofs.«150350_j27831388078171_2_alg».proof.Proof.Gen.ReferenceIdeal
import proofs.«150350_j27831388078171_2_alg».proof.Proof.Gen.ReferenceIdeal.Run
import proofs.«150350_j27831388078171_2_alg».proof.Proof.Gen.ReferenceIdeal.Read
import proofs.«150350_j27831388078171_2_alg».proof.Proof.Gen.Pre_finite_inputs
import proofs.«150350_j27831388078171_2_alg».proof.Proof.Proj
import proofs.«150350_j27831388078171_2_alg».proof.Proof.Tail
import proofs.«150350_j27831388078171_2_alg».proof.Proof.KRun
import Idealize.ShloMosaic.Adequacy
import Idealize.ShloMosaic.Init

noncomputable section

namespace Cert.Proof

open Idealize.ShloMosaic Idealize.SL.Sem

/-- The word-level kernel program terminates, faults nowhere and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the aggregation stages applied to the
    projection X·Wᵀ of the arguments: the kernel program by its run read back, the reference because its product of
    the whole matrices is that projection. -/
theorem algebraic : Cert.algebraic_KernelIdeal_ReferenceIdeal := by
  intro m ρ m' ρ' _ hagree
  refine ⟨fun c => Cert.Hgnn.tail
      (Cert.Hgnn.proj (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)),
    Cert.Hgnn.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.Hgnn.ref_result _ _ _ _ _ _ _).trans
    (congrArg (fun xp => Cert.Hgnn.tail xp _ _ _ _ _) (Cert.Hgnn.ref_proj _ _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
